-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x128 : Shape := ⟨3, ![4096, 128, 128]⟩
abbrev S128x128 : Shape := ⟨2, ![128, 128]⟩
abbrev S4096x2 : Shape := ⟨2, ![4096, 2]⟩
abbrev S_ : Shape := ⟨0, ![]⟩

class Facts : Prop where
  bcast_S_S4096x128x128 : S_.BroadcastsInDim S4096x128x128 (![] : Fin 0 → Fin S4096x128x128.rank)
  reducesTo_S4096x128x128_S_d0_1_2 : S4096x128x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4096x128x128 .f32) (main_arg1 : FVec F S4096x128x128 .f32) (main_arg2 : FVec F S128x128 .f32) (main_arg3 : IVec S4096x2 32) : IVec S_ 1 :=
  let main_v0 : FVec F S4096x128x128 .f32 := Host.absf main_arg0
  let main_cst : FVec F S_ .f32 := constant S_ .f32 0x7F800000#32
  let main_v1 : FVec F S4096x128x128 .f32 := broadcastInDim S4096x128x128 ![] bcast_S_S4096x128x128 main_cst
  let main_v2 : IVec S4096x128x128 1 := cmpf .olt main_v0 main_v1
  let main_c : IVec S_ 1 := constantI S_ 1 1#1
  let main_v3 : IVec S_ 1 := (fun x v => Host.reduce IntOp.andi x v reducesTo_S4096x128x128_S_d0_1_2 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S4096x128x128 : Shape := ⟨3, ![4096, 128, 128]⟩
abbrev S128x128 : Shape := ⟨2, ![128, 128]⟩
abbrev S4096x2 : Shape := ⟨2, ![4096, 2]⟩
abbrev S4096x1 : Shape := ⟨2, ![4096, 1]⟩
abbrev S4096 : Shape := ⟨1, ![4096]⟩
abbrev S128 : Shape := ⟨1, ![128]⟩
abbrev S1x128 : Shape := ⟨2, ![1, 128]⟩
abbrev S4096x128 : Shape := ⟨2, ![4096, 128]⟩
abbrev S4096x128x1 : Shape := ⟨3, ![4096, 128, 1]⟩
abbrev S32x128x128 : Shape := ⟨3, ![32, 128, 128]⟩
abbrev S32x128x1 : Shape := ⟨3, ![32, 128, 1]⟩

abbrev nBuf : Space → Nat
  | .hbm => 17
  | .vmem => 9
  | .smem => 0
  | _ => 0

abbrev bufTy : (tb : Table) → Fin (tcTables nBuf tb) → BufTy
  | .hbm, ⟨0, _⟩ => ⟨S4096x128x128, .f32⟩
  | .hbm, ⟨1, _⟩ => ⟨S4096x128x128, .f32⟩
  | .hbm, ⟨2, _⟩ => ⟨S128x128, .f32⟩
  | .hbm, ⟨3, _⟩ => ⟨S4096x2, .i32⟩
  | .hbm, ⟨4, _⟩ => ⟨S4096x1, .i32⟩
  | .hbm, ⟨5, _⟩ => ⟨S4096, .i32⟩
  | .hbm, ⟨6, _⟩ => ⟨S128, .i32⟩
  | .hbm, ⟨7, _⟩ => ⟨S1x128, .i32⟩
  | .hbm, ⟨8, _⟩ => ⟨S4096x1, .i32⟩
  | .hbm, ⟨9, _⟩ => ⟨S4096x128, .i32⟩
  | .hbm, ⟨10, _⟩ => ⟨S4096x128, .i32⟩
  | .hbm, ⟨11, _⟩ => ⟨S4096x128, .i1⟩
  | .hbm, ⟨12, _⟩ => ⟨S4096x128, .f32⟩
  | .hbm, ⟨13, _⟩ => ⟨S4096x128x1, .f32⟩
  | .hbm, ⟨14, _⟩ => ⟨S4096x128x128, .bf16⟩
  | .hbm, ⟨15, _⟩ => ⟨S128x128, .bf16⟩
  | .hbm, ⟨16, _⟩ => ⟨S4096x128x128, .f32⟩
  | .local _ .vmem, ⟨0, _⟩ => ⟨S32x128x128, .bf16⟩
  | .local _ .vmem, ⟨1, _⟩ => ⟨S32x128x128, .bf16⟩
  | .local _ .vmem, ⟨2, _⟩ => ⟨S32x128x128, .f32⟩
  | .local _ .vmem, ⟨3, _⟩ => ⟨S32x128x128, .f32⟩
  | .local _ .vmem, ⟨4, _⟩ => ⟨S128x128, .bf16⟩
  | .local _ .vmem, ⟨5, _⟩ => ⟨S32x128x1, .f32⟩
  | .local _ .vmem, ⟨6, _⟩ => ⟨S32x128x1, .f32⟩
  | .local _ .vmem, ⟨7, _⟩ => ⟨S32x128x128, .f32⟩
  | .local _ .vmem, ⟨8, _⟩ => ⟨S32x128x128, .f32⟩
  | _, _ => ⟨S4096x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4096x2_S4096x1_0_0 : S4096x2.Slices ![0, 0] S4096x1
  shapeCasts_S4096x1_S4096 : S4096x1.ShapeCasts S4096
  bcast_S128_S1x128_1 : S128.BroadcastsInDim S1x128 (![1] : Fin 1 → Fin S1x128.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  bcast_S4096x1_S4096x128_0_1 : S4096x1.BroadcastsInDim S4096x128 (![0, 1] : Fin 2 → Fin S4096x128.rank)
  bcast_S4096x128_S4096x128x1_0_1 : S4096x128.BroadcastsInDim S4096x128x1 (![0, 1] : Fin 2 → Fin S4096x128x1.rank)
  bitsLt_bf16_f32 : FTy.bits .bf16 < FTy.bits .f32
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  shapeCasts_S32x128x128_S4096x128 : S32x128x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S32x128x128 : S4096x128.ShapeCasts S32x128x128
  inb_S32x128x1_S32x128x1_0_0_0 : ∀ a, (![0, 0, 0] : Fin 3 → Nat) a + S32x128x1.size a ≤ S32x128x1.size a
  h_S32x128x1 : 0 < S32x128x1.numel
  shapeCasts_S32x128x1_S32x128x1 : S32x128x1.ShapeCasts S32x128x1
  broadcasts_S32x128x1_S32x128x128 : S32x128x1.Broadcasts S32x128x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x128.size a ≤ S4096x128x128.size a
  hwx0_0 : ∀ i : grid0.Coords, EltTy.bits .bf16 = 32 ∨ (Rect.block (s := S4096x128x128) S32x128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S4096x128x128.size a
  hwx0_1 : ∀ i : grid0.Coords, EltTy.bits .f32 = 32 ∨ (Rect.block (s := S4096x128x128) S32x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x1.size a ≤ S4096x128x1.size a
  hwx0_3 : ∀ i : grid0.Coords, EltTy.bits .f32 = 32 ∨ (Rect.block (s := S4096x128x1) S32x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128x128.size a ≤ S4096x128x128.size a
  hwx0_4 : ∀ i : grid0.Coords, EltTy.bits .f32 = 32 ∨ (Rect.block (s := S4096x128x128) S32x128x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v10) S32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S32x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S32x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128x128 : Shape := ⟨3, ![4096, 128, 128]⟩
abbrev S128x128 : Shape := ⟨2, ![128, 128]⟩
abbrev S4096x2 : Shape := ⟨2, ![4096, 2]⟩
abbrev S4096x1 : Shape := ⟨2, ![4096, 1]⟩
abbrev S4096 : Shape := ⟨1, ![4096]⟩
abbrev S128 : Shape := ⟨1, ![128]⟩
abbrev S1x128 : Shape := ⟨2, ![1, 128]⟩
abbrev S4096x128 : Shape := ⟨2, ![4096, 128]⟩
abbrev S4096x128x1 : Shape := ⟨3, ![4096, 128, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x128x128, .f32⟩
  | .hbm, ⟨1, _⟩ => ⟨S4096x128x128, .f32⟩
  | .hbm, ⟨2, _⟩ => ⟨S128x128, .f32⟩
  | .hbm, ⟨3, _⟩ => ⟨S4096x2, .i32⟩
  | .hbm, ⟨4, _⟩ => ⟨S4096x1, .i32⟩
  | .hbm, ⟨5, _⟩ => ⟨S4096, .i32⟩
  | .hbm, ⟨6, _⟩ => ⟨S128, .i32⟩
  | .hbm, ⟨7, _⟩ => ⟨S1x128, .i32⟩
  | .hbm, ⟨8, _⟩ => ⟨S4096x1, .i32⟩
  | .hbm, ⟨9, _⟩ => ⟨S4096x128, .i32⟩
  | .hbm, ⟨10, _⟩ => ⟨S4096x128, .i32⟩
  | .hbm, ⟨11, _⟩ => ⟨S4096x128, .i1⟩
  | .hbm, ⟨12, _⟩ => ⟨S4096x128x1, .i1⟩
  | .hbm, ⟨13, _⟩ => ⟨S4096x128x128, .f32⟩
  | .hbm, ⟨14, _⟩ => ⟨S4096x128x128, .f32⟩
  | .hbm, ⟨15, _⟩ => ⟨S_, .f32⟩
  | .hbm, ⟨16, _⟩ => ⟨S4096x128x128, .f32⟩
  | .hbm, ⟨17, _⟩ => ⟨S4096x128x128, .f32⟩
  | .hbm, ⟨18, _⟩ => ⟨S_, .f32⟩
  | .hbm, ⟨19, _⟩ => ⟨S4096x128x128, .i1⟩
  | .hbm, ⟨20, _⟩ => ⟨S4096x128x128, .f32⟩
  | .hbm, ⟨21, _⟩ => ⟨S4096x128x128, .f32⟩
  | _, _ => ⟨S4096x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  bcast_S128_S1x128_1 : S128.BroadcastsInDim S1x128 (![1] : Fin 1 → Fin S1x128.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  bcast_S4096x1_S4096x128_0_1 : S4096x1.BroadcastsInDim S4096x128 (![0, 1] : Fin 2 → Fin S4096x128.rank)
  bcast_S4096x128_S4096x128x1_0_1 : S4096x128.BroadcastsInDim S4096x128x1 (![0, 1] : Fin 2 → Fin S4096x128x1.rank)
  bcast_S_S4096x128x128 : S_.BroadcastsInDim S4096x128x128 (![] : Fin 0 → Fin S4096x128x128.rank)
  bcast_S4096x128x1_S4096x128x128_0_1_2 : S4096x128x1.BroadcastsInDim S4096x128x128 (![0, 1, 2] : Fin 3 → Fin S4096x128x128.rank)
  dot_S4096x128x128_S128x128_S4096x128x128_2_0_01_1_n_n_wf : DotDims.WF S4096x128x128 S128x128 S4096x128x128 [2] [0] [0, 1] [1] [] []

variable [Facts₀]

def dot_S4096x128x128_S128x128_S4096x128x128_2_0_01_1_n_n : DotDims S4096x128x128 S128x128 S4096x128x128 where
  lhsContracting := [2]
  rhsContracting := [0]
  lhsNonContracting := [0, 1]
  rhsNonContracting := [1]
  lhsBatch := []
  rhsBatch := []
  wf := dot_S4096x128x128_S128x128_S4096x128x128_2_0_01_1_n_n_wf

class Facts : Prop extends Facts₀ where

variable [Facts]
-- ==== Proof.MaskedRelu.lean ====
/-
  The function both programs compute, index by index over the extended reals.

  Three-axis arrays of extents 4096 × 128 × 128. For batch entry `b`, row `a`, column `f`:

      act (b, a, f) = max (∑ k, x₁ (b, a, k) · x₂ (k, f) + x₀ (b, a, f), 0)

  and the row is LIVE when `a < n_b` as signed 32-bit integers, `n_b` the first entry of row `b` of the integer
  table. The result is `act` on live rows and zero on the others. One program writes this as a product with the
  comparison bit read as a number (1 or 0), the other as a choice between `act` and zero on that bit: the two agree
  for every extended real, because a product with 1 is the factor and a product with 0 is 0 (no finiteness is needed:
  on the extended reals `x · 0 = 0` for every `x`, the infinities included).
-/
import Idealize.ShloMosaic.PureOps.Ideal
import Idealize.ShloMosaic.PureOps.Ideal.Laws
import Idealize.ShloMosaic.Lib.ValueIdx

noncomputable section

namespace Cert.MaskedRelu

open Idealize.ShloMosaic Idealize.ShloMosaic.ValueIdx

/-- The comparison bit of row `a` of batch entry `b`: `a < n_b`, signed, `n_b` the table's entry `(b, 0)`. -/
def live (x3 : (⟨2, ![4096, 2]⟩ : Shape).Idx → BitVec 32) (b : Fin 4096) (a : Fin 128) : BitVec 1 :=
  IntOp.cmpi .slt (BitVec.ofNat 32 a.val) (x3 (ix2 b (0 : Fin 2)))

/-- The rectified affine map at `(b, a, f)`: row `(b, a)` of `x₁` against column `f` of `x₂`, plus `x₀ (b, a, f)`,
    cut below at zero. -/
def act (x0 x1 : (⟨3, ![4096, 128, 128]⟩ : Shape).Idx → EReal) (x2 : (⟨2, ![128, 128]⟩ : Shape).Idx → EReal)
    (b : Fin 4096) (a f : Fin 128) : EReal :=
  max ((∑ k : Fin 128, x1 (ix3 b a k) * x2 (ix2 k f)) + x0 (ix3 b a f)) 0

/-- The result array: `act` times the comparison bit as a number. -/
def G (x0 x1 : (⟨3, ![4096, 128, 128]⟩ : Shape).Idx → EReal) (x2 : (⟨2, ![128, 128]⟩ : Shape).Idx → EReal)
    (x3 : (⟨2, ![4096, 2]⟩ : Shape).Idx → BitVec 32) : (⟨3, ![4096, 128, 128]⟩ : Shape).Idx → EReal := fun i =>
  act x0 x1 x2 (i 0) (i 1) (i 2) * (((live x3 (i 0) (i 1)).toNat : ℝ) : EReal)

/-- A one-bit word is 0 or 1. -/
theorem bit_cases (c : BitVec 1) : c = 0#1 ∨ c = 1#1 := by
  revert c; decide

/-- Choosing between `v` and zero on a bit is multiplying `v` by the bit read as a number. -/
theorem select_zero_eq_mul (c : BitVec 1) (v : EReal) :
    Scalar.select c v (0 : EReal) = v * (((c.toNat : ℕ) : ℝ) : EReal) := by
  rcases bit_cases c with rfl | rfl
  · rw [select_zero]
    show (0 : EReal) = v * (((0 : ℕ) : ℝ) : EReal)
    rw [Nat.cast_zero, EReal.coe_zero, mul_zero]
  · rw [select_one]
    show v = v * (((1 : ℕ) : ℝ) : EReal)
    rw [Nat.cast_one, EReal.coe_one, mul_one]

end Cert.MaskedRelu

end
-- ==== Proof.HostSide.lean ====
/-
  The host program's result is the masked rectified affine map `MaskedRelu.G` of its four arguments.

  Read one operation at a time: the comparison bit at `(b, a, f)` is the bit of `(b, a)` — the iota along the row axis
  against the table's first column, both stretched to the common shape —; the contraction at `(b, a, f)` sums over
  the last axis of the first operand and the first axis of the second; the choice between the rectified value and zero
  on the bit is the product with the bit as a number.
-/
import proofs.«142078_j53266184405691_1_alg».proof.Proof.Gen.ReferenceIdeal.Read
import proofs.«142078_j53266184405691_1_alg».proof.Proof.MaskedRelu

noncomputable section

namespace Cert.ReferenceIdeal.HostSide

open Cert.ReferenceIdeal Cert.ReferenceIdeal.Read Idealize.ShloMosaic Idealize.ShloMosaic.ValueIdx Cert.MaskedRelu

/-- The comparison of the row iota with the table's first column, both stretched to [4096,128], is at `(b, a)` the bit
    of `(b, a)`. -/
theorem cmp_apply (x3 : (⟨S4096x2, .i32⟩ : BufTy).Contents (Elt Ideal)) (j : S4096x128.Idx) :
    val_main_v7 (F := Ideal) x3 j = live x3 (j 0) (j 1) := by
  rw [val_main_v7_apply, val_main_v5_apply, val_main_v3_apply, val_main_v2_apply, val_main_v6_apply, val_main_v4_apply,
    val_main_v1_apply, val_main_v0_apply]
  unfold live
  have e : idx_main_v0 (idx_main_v1 (idx_main_v4 (idx_main_v6 j))) = ix2 (j 0) (0 : Fin 2) :=
    funext fun a => Fin.ext (by
      match a with
      | ⟨0, _⟩ => exact Nat.div_one _
      | ⟨1, _⟩ => rfl)
  rw [e]
  rfl

/-- The stretched comparison bit at `(b, a, f)` is the bit of `(b, a)`. -/
theorem bit_apply (x3 : (⟨S4096x2, .i32⟩ : BufTy).Contents (Elt Ideal)) (i : S4096x128x128.Idx) :
    val_main_call1_v0 (F := Ideal) x3 i = live x3 (i 0) (i 1) := by
  rw [val_main_call1_v0_apply, val_main_v8_apply, cmp_apply]
  rfl

/-- The host's result term is `G` of the arguments. -/
theorem result_eq (x0 x1 : (⟨S4096x128x128, .f32⟩ : BufTy).Contents (Elt Ideal)) (x2 : (⟨S128x128, .f32⟩ : BufTy).Contents (Elt Ideal))
    (x3 : (⟨S4096x2, .i32⟩ : BufTy).Contents (Elt Ideal)) :
    val_main_v12 (F := Ideal) x0 x1 x2 x3 = G x0 x1 x2 x3 := by
  funext i
  rw [val_main_v12_apply, val_main_v11_apply, val_main_v10_apply, val_main_v9_apply, val_main_call0_v0_apply,
    val_main_call0_cst_apply, val_main_call1_v1_apply, val_main_cst_apply, bit_apply]
  simp only [Ideal.maximumf_def, Ideal.addf_def, Ideal.ofBits_def, Ideal.ofBits_zero_f32]
  rw [select_zero_eq_mul]
  unfold G act
  have el : ∀ k : Fin 128, lidx_main_v9 i k = ix3 (i 0) (i 1) k := fun k =>
    funext fun a => Fin.ext (by match a with | ⟨0, _⟩ => rfl | ⟨1, _⟩ => rfl | ⟨2, _⟩ => rfl)
  have er : ∀ k : Fin 128, ridx_main_v9 i k = ix2 k (i 2) := fun k =>
    funext fun a => Fin.ext (by match a with | ⟨0, _⟩ => rfl | ⟨1, _⟩ => rfl)
  simp only [el, er]
  have e0 : x0 i = x0 (ix3 (i 0) (i 1) (i 2)) := congrArg x0 (eq_ix3 i)
  rw [e0]
  rfl

end Cert.ReferenceIdeal.HostSide

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibFoldedRows.lean ====
/-
  A three-axis array with its two leading axes folded into one, and a unit last axis stretched, read at coordinates.

  * An array [P,Q,R] recast as the matrix [N,R] with N = P·Q reads, at row `n = p·Q + q` and column `r`, the entry
    `(p, q, r)`; and a matrix [N,R] recast as [P,Q,R] reads, at `(p, q, r)`, its entry `(p·Q + q, r)`. Both are the
    same statement about row-major positions: `(p·Q + q)·R + r` on either side.
  * An array [P,Q,1] stretched along its last axis to [P,Q,R] reads, at `(p, q, r)`, its entry `(p, q, 0)`.
-/
import Idealize.ShloMosaic.Lib.ValueIdx
import Idealize.ShloMosaic.Lib.Pipeline.Value

namespace Cert.LibFoldedRows

open Idealize.ShloMosaic Idealize.ShloMosaic.ValueIdx

variable {α : Type}

/-- Folding the two leading axes: row `p·Q + q` of the matrix is row `(p, q)` of the array. -/
theorem fold_apply {P Q R N : ℕ} (x : (⟨3, ![P, Q, R]⟩ : Shape).Idx → α)
    (h : (⟨3, ![P, Q, R]⟩ : Shape).ShapeCasts ⟨2, ![N, R]⟩) (p : Fin P) (q : Fin Q) (r : Fin R) (n : Fin N)
    (hn : n.val = p.val * Q + q.val) :
    shapeCast ⟨2, ![N, R]⟩ x h (ix2 n r) = x (ix3 p q r) := by
  refine shapeCast_apply x h _ _ ?_
  rw [Shape.rowMajor_val_three, Shape.rowMajor_val_two]
  show (p.val * Q + q.val) * R + r.val = n.val * R + r.val
  rw [hn]

/-- Splitting the leading axis: entry `(p, q, r)` of the array is entry `(p·Q + q, r)` of the matrix. -/
theorem split_apply {P Q R N : ℕ} (y : (⟨2, ![N, R]⟩ : Shape).Idx → α)
    (h : (⟨2, ![N, R]⟩ : Shape).ShapeCasts ⟨3, ![P, Q, R]⟩) (p : Fin P) (q : Fin Q) (r : Fin R) (n : Fin N)
    (hn : n.val = p.val * Q + q.val) :
    shapeCast ⟨3, ![P, Q, R]⟩ y h (ix3 p q r) = y (ix2 n r) := by
  refine shapeCast_apply y h _ _ ?_
  rw [Shape.rowMajor_val_three, Shape.rowMajor_val_two]
  show n.val * R + r.val = (p.val * Q + q.val) * R + r.val
  rw [hn]

/-- A unit last axis stretched: entry `(p, q, r)` is the entry `(p, q, 0)` of the operand. -/
theorem stretch_last_apply {P Q R : ℕ} (x : (⟨3, ![P, Q, 1]⟩ : Shape).Idx → α)
    (h : (⟨3, ![P, Q, 1]⟩ : Shape).Broadcasts ⟨3, ![P, Q, R]⟩) (p : Fin P) (q : Fin Q) (r : Fin R) :
    broadcastTo ⟨3, ![P, Q, R]⟩ x h (ix3 p q r) = x (ix3 p q (0 : Fin 1)) := by
  refine broadcastTo_apply x h _ _ fun a => ?_
  match a with
  | ⟨0, _⟩ =>
    show p.val = if P = 1 then 0 else p.val
    split
    · have := p.isLt; omega
    · rfl
  | ⟨1, _⟩ =>
    show q.val = if Q = 1 then 0 else q.val
    split
    · have := q.isLt; omega
    · rfl
  | ⟨2, _⟩ =>
    show 0 = if (1 : ℕ) = 1 then 0 else r.val
    rw [if_pos rfl]

end Cert.LibFoldedRows
-- ==== Proof.Tile.lean ====
/-
  What one grid point computes, entry by entry.

  The point's block of the first operand, [32,128,128], is read as the matrix [4096,128] whose row `p·128 + q` is row
  `(p, q)` of the block; that matrix times the [128,128] second operand, into a zero accumulator, is at `(p·128 + q, r)` the
  sum over `k` of `block (p, q, k) · w (k, r)`; read back as [32,128,128], with the third operand's block added, cut below
  at zero, and multiplied by the fourth operand's [32,128,1] block stretched along its unit axis, the entry `(p, q, r)` is

      max (∑ k, v₀ (p, q, k) · v₃ (k, r) + v₇ (p, q, r), 0) · v₁₁ (p, q, 0).
-/
import proofs.«142078_j53266184405691_1_alg».proof.Proof.Gen.KernelIdeal.Skeleton
import proofs.«142078_j53266184405691_1_alg».proof.Proof.LibColumnBlocks
import proofs.«142078_j53266184405691_1_alg».proof.Proof.LibFoldedRows
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-- Row `(p, q)` of a [32,128,·] block is row `p·128 + q` of the folded matrix. -/
def row (p : Fin 32) (q : Fin 128) : Fin 4096 := ⟨p.val * 128 + q.val, by have := p.isLt; have := q.isLt; omega⟩

/-- The product's left operand is read at the result's row. -/
theorem lhs_row (j : S4096x128.Idx) (k : dot_S4096x128_S128x128_S4096x128_1_0_0_1_n_n.contr.Idx) :
    (dot_S4096x128_S128x128_S4096x128_1_0_0_1_n_n.lhsIdx j k 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- The product's right operand is read at the result's column. -/
theorem rhs_col (j : S4096x128.Idx) (k : dot_S4096x128_S128x128_S4096x128_1_0_0_1_n_n.contr.Idx) :
    (dot_S4096x128_S128x128_S4096x128_1_0_0_1_n_n.rhsIdx j k 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The folded block times the second operand, at row `p·128 + q` and column `r`. -/
theorem product_apply (v0 : FVec Ideal S32x128x128 .bf16) (v3 : FVec Ideal S128x128 .bf16)
    (h1 : S32x128x128.ShapeCasts S4096x128) (p : Fin 32) (q r : Fin 128) :
    matmul (F := Ideal) dot_S4096x128_S128x128_S4096x128_1_0_0_1_n_n none
        (shapeCast S4096x128 v0 h1 : FVec Ideal S4096x128 .bf16) v3
        (constant S4096x128 .f32 0x00000000#32) (ix2 (row p q) r)
      = ∑ k : Fin 128, v0 (ix3 p q k) * v3 (ix2 k r) := by
  rw [LibColumnBlocks.matmul_zero_apply dot_S4096x128_S128x128_S4096x128_1_0_0_1_n_n rfl rfl rfl rfl lhs_row rhs_col]
  refine Finset.sum_congr rfl fun k _ => ?_
  rw [LibFoldedRows.fold_apply v0 h1 p q k (row p q) rfl]

/-- The body's stored value at `(p, q, r)`. -/
theorem pay_apply (v0 : Vec Ideal S32x128x128 .bf16) (v3 : Vec Ideal S128x128 .bf16) (v7 : Vec Ideal S32x128x128 .f32)
    (v11 : Vec Ideal S32x128x1 .f32) (p : Fin 32) (q r : Fin 128) :
    k0_pay1 (F := Ideal) v0 v3 v7 v11 (ix3 p q r)
      = max ((∑ k : Fin 128, v0 (ix3 p q k) * v3 (ix2 k r)) + v7 (ix3 p q r)) 0 * v11 (ix3 p q (0 : Fin 1)) := by
  unfold k0_pay1
  simp only [shapeCast_self]
  rw [mulf_apply, maximumf_apply, addf_apply, broadcast_apply, LibFoldedRows.stretch_last_apply,
    LibFoldedRows.split_apply _ _ p q r (row p q) rfl, product_apply]
  show max (_ + _) (Ideal.ofBits .f32 0x00000000#32) * _ = _
  rw [Ideal.ofBits_zero_f32]

end Cert.KernelIdeal.Tile

end
-- ==== Proof.Staged.lean ====
/-
  The three arrays the host operations write before the region, as functions of the arguments.

  The first and third operands of the call are the second and third arguments re-formatted to a narrower float type,
  which on the extended reals changes nothing: they ARE those arguments. The fourth operand is the comparison bit of
  `(b, a)` — the row iota against the integer table's first column — read as a number and given a unit last axis:
  its entry `(b, a, 0)` is 1 on a live row and 0 otherwise. The comparison is built by the same operations, in the same
  order, as in the host program, so its reading there (`HostSide.cmp_apply`) is reused.
-/
import proofs.«142078_j53266184405691_1_alg».proof.Proof.Gen.KernelIdeal.Frame
import proofs.«142078_j53266184405691_1_alg».proof.Proof.HostSide
import Idealize.ShloMosaic.Lib.StableHlo.Run

noncomputable section

namespace Cert.KernelIdeal.Staged

open Cert.KernelIdeal Cert.KernelIdeal.Gen Idealize.ShloMosaic Idealize.ShloMosaic.ValueIdx Idealize.ShloMosaic.TcCoe
open Idealize.SL.Sem Idealize.ShloMosaic.StableHlo Cert.MaskedRelu

variable (m : (ℓ : Loc nD τ sig) → Buf (Elt Ideal) ℓ)

/-- The call's first operand is the second argument. -/
theorem V_v10 (c : Dev nD) :
    (V m c main_v10 : S4096x128x128.Idx → EReal) = m ((c : Thread nD τ).loc main_arg1) := by
  dsimp only [Gen.V, Gen.hostOps0]; after_results; rfl

/-- The call's third operand is the third argument. -/
theorem V_v11 (c : Dev nD) :
    (V m c main_v11 : S128x128.Idx → EReal) = m ((c : Thread nD τ).loc main_arg2) := by
  dsimp only [Gen.V, Gen.hostOps0]; after_results; rfl

/-- The call's fourth operand: the comparison, as numbers, with a unit last axis. -/
theorem V_v9 (c : Dev nD) :
    (V m c main_v9 : S4096x128x1.Idx → EReal)
      = broadcastInDim S4096x128x1 ![0, 1] Facts₀.bcast_S4096x128_S4096x128x1_0_1
          (uitofp (F := Ideal) .f32 (Cert.ReferenceIdeal.Read.val_main_v7 (F := Ideal) (m ((c : Thread nD τ).loc main_arg3)))) := by
  dsimp only [Gen.V, Gen.hostOps0]; after_results; rfl

/-- Its entry `(b, a, 0)` is the bit of `(b, a)` as a number. -/
theorem V_v9_apply (c : Dev nD) (b : Fin 4096) (a : Fin 128) (z : Fin 1) :
    (V m c main_v9 : S4096x128x1.Idx → EReal) (ix3 b a z)
      = (((live (m ((c : Thread nD τ).loc main_arg3)) b a).toNat : ℝ) : EReal) := by
  rw [V_v9]
  rw [broadcastInDim_apply _ _ _ (ix3 b a z) (ix2 b a) (fun d => by
    match d with
    | ⟨0, _⟩ => show b.val = if (4096 : ℕ) = 1 then 0 else b.val; rw [if_neg (by decide)]
    | ⟨1, _⟩ => show a.val = if (128 : ℕ) = 1 then 0 else a.val; rw [if_neg (by decide)])]
  show (((Cert.ReferenceIdeal.Read.val_main_v7 (F := Ideal) (m ((c : Thread nD τ).loc main_arg3)) (ix2 b a)).toNat : ℝ) : EReal) = _
  rw [Cert.ReferenceIdeal.HostSide.cmp_apply]

end Cert.KernelIdeal.Staged

end
-- ==== Proof.Whole.lean ====
/-
  From the grid points' blocks to the whole result array.

  Grid point `t` (of 128) works on batch entries `32·t … 32·t + 31`: its blocks of the two [4096,128,128] operands, of
  the [4096,128,1] operand and of the result all start at batch entry `32·t` and take the other axes whole, and the
  [128,128] operand is taken whole at every point. So entry `(p, q, r)` of what point `t` writes back is the masked
  rectified affine map at `(32·t + p, q, r)`: the point writes block `t` of `MaskedRelu.G` of the arguments. The 128 blocks
  cover the array — batch entry `b` lies in block `b / 32` — so the array ends holding `G`.
-/
import proofs.«142078_j53266184405691_1_alg».proof.Proof.Gen.KernelIdeal.Value
import proofs.«142078_j53266184405691_1_alg».proof.Proof.Tile
import proofs.«142078_j53266184405691_1_alg».proof.Proof.Staged

set_option maxRecDepth 16384

noncomputable section

namespace Cert.KernelIdeal.Whole

open Cert.KernelIdeal Cert.KernelIdeal.Gen Idealize.ShloMosaic Idealize.ShloMosaic.ValueIdx Idealize.ShloMosaic.TcCoe
open Idealize.SL.Sem Cert.MaskedRelu
open Idealize.ShloMosaic.Pipeline (Dat)

variable (m : (ℓ : Loc nD τ sig) → Buf (Elt Ideal) ℓ) (ρ : Dev nD → PrngReg)

/-- The result array as a function of the four arguments on core `c`. -/
def result (c : Dev nD) : S4096x128x128.Idx → EReal :=
  G (m ((c : Thread nD τ).loc main_arg0)) (m ((c : Thread nD τ).loc main_arg1)) (m ((c : Thread nD τ).loc main_arg2))
    (m ((c : Thread nD τ).loc main_arg3))

theorem zero3 : (![0, 0, 0] : Fin 3 → Nat) = fun _ => 0 := funext fun a => by fin_cases a <;> rfl
theorem zero2 : (![0, 0] : Fin 2 → Nat) = fun _ => 0 := funext fun a => by fin_cases a <;> rfl

/-- Where each window's block at point `t` starts, in blocks: at `t` along the batch axis and at 0 along the others; the
    [128,128] operand's at 0 on both axes. -/
theorem starts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- A point's stored value, entry by entry, from what its four blocks hold: when the blocks are the rows
    `32·T + p` of the arrays `x₁`, `x₀`, the whole `x₂`, and the bits of those rows as numbers, the stored value at `y` is
    `G` at `(32·T + y₀, y₁, y₂)`. -/
theorem point_eq (x0 x1 : S4096x128x128.Idx → EReal) (x2 : S128x128.Idx → EReal) (x3 : S4096x2.Idx → BitVec 32)
    (b0 : Vec Ideal S32x128x128 .bf16) (b1 : Vec Ideal S32x128x128 .f32) (b2 : Vec Ideal S128x128 .bf16)
    (b3 : Vec Ideal S32x128x1 .f32) (T : ℕ) (hT : T < 128)
    (h0 : ∀ (p : Fin 32) (q k : Fin 128), b0 (ix3 p q k) = x1 (ix3 (⟨T * 32 + p.val, by have := p.isLt; omega⟩ : Fin 4096) q k))
    (h1 : ∀ (p : Fin 32) (q r : Fin 128), b1 (ix3 p q r) = x0 (ix3 (⟨T * 32 + p.val, by have := p.isLt; omega⟩ : Fin 4096) q r))
    (h2 : ∀ (k r : Fin 128), b2 (ix2 k r) = x2 (ix2 k r))
    (h3 : ∀ (p : Fin 32) (q : Fin 128), b3 (ix3 p q (0 : Fin 1))
      = (((live x3 (⟨T * 32 + p.val, by have := p.isLt; omega⟩ : Fin 4096) q).toNat : ℝ) : EReal))
    (p : Fin 32) (q r : Fin 128) :
    k0_pay1 (F := Ideal) b0 b2 b1 b3 (ix3 p q r)
      = G x0 x1 x2 x3 (ix3 (⟨T * 32 + p.val, by have := p.isLt; omega⟩ : Fin 4096) q r) := by
  rw [Tile.pay_apply, h1, h3]
  unfold G act
  simp only [h0, h2]

/-- The same, as one function of the position in the block. -/
theorem point_fun (x0 x1 : S4096x128x128.Idx → EReal) (x2 : S128x128.Idx → EReal) (x3 : S4096x2.Idx → BitVec 32)
    (b0 : Vec Ideal S32x128x128 .bf16) (b1 : Vec Ideal S32x128x128 .f32) (b2 : Vec Ideal S128x128 .bf16)
    (b3 : Vec Ideal S32x128x1 .f32) (T : ℕ) (hT : T < 128)
    (h0 : ∀ (p : Fin 32) (q k : Fin 128), b0 (ix3 p q k) = x1 (ix3 (⟨T * 32 + p.val, by have := p.isLt; omega⟩ : Fin 4096) q k))
    (h1 : ∀ (p : Fin 32) (q r : Fin 128), b1 (ix3 p q r) = x0 (ix3 (⟨T * 32 + p.val, by have := p.isLt; omega⟩ : Fin 4096) q r))
    (h2 : ∀ (k r : Fin 128), b2 (ix2 k r) = x2 (ix2 k r))
    (h3 : ∀ (p : Fin 32) (q : Fin 128), b3 (ix3 p q (0 : Fin 1))
      = (((live x3 (⟨T * 32 + p.val, by have := p.isLt; omega⟩ : Fin 4096) q).toNat : ℝ) : EReal)) :
    k0_pay1 (F := Ideal) b0 b2 b1 b3
      = fun y : S32x128x128.Idx => G x0 x1 x2 x3
          (ix3 (⟨T * 32 + (y 0).val, by have : (y 0).val < 32 := (y 0).isLt; omega⟩ : Fin 4096) (y 1) (y 2)) := by
  funext y
  obtain ⟨p, q, r, rfl⟩ : ∃ (p : Fin 32) (q r : Fin 128), y = ix3 p q r := ⟨y 0, y 1, y 2, eq_ix3 y⟩
  exact point_eq x0 x1 x2 x3 b0 b1 b2 b3 T hT h0 h1 h2 h3 p q r

/-- WHAT POINT `t` WRITES BACK is block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero zero3]
  simp only [View.ld_unit_zero (S := S32x128x128) zero3, View.ld_unit_zero (S := S128x128) zero2,
    View.ld_unit_zero (S := S32x128x1) zero3]
  obtain ⟨⟨a0, a1, a2⟩, ⟨b0, b1, b2⟩, ⟨c0, c1⟩, ⟨d0, d1, d2⟩, ⟨e0, e1, e2⟩⟩ := starts t
  have hN : cfg0.N = 128 := N_0
  have hT : t.val < 128 := by have := t.isLt; omega
  have h0 : ∀ (p : Fin 32) (q k : Fin 128), iblk m c 0 t (ix3 p q k)
      = m ((c : Thread nD τ).loc main_arg1) (ix3 (⟨t.val * 32 + p.val, by have := p.isLt; omega⟩ : Fin 4096) q k) := fun p q k => by
    show V m c main_v10 (((cfg0.win 0).blk t).view.emb (ix3 p q k)) = _
    rw [Staged.V_v10]
    refine congrArg _ (funext fun a => Fin.ext ?_)
    match a with
    | ⟨0, _⟩ => show win0_0.index t (0 : Fin 3) * 32 + 1 * p.val = t.val * 32 + p.val; rw [a0]; omega
    | ⟨1, _⟩ => show win0_0.index t (1 : Fin 3) * 128 + 1 * q.val = q.val; rw [a1]; omega
    | ⟨2, _⟩ => show win0_0.index t (2 : Fin 3) * 128 + 1 * k.val = k.val; rw [a2]; omega
  have h1 : ∀ (p : Fin 32) (q r : Fin 128), iblk m c 1 t (ix3 p q r)
      = m ((c : Thread nD τ).loc main_arg0) (ix3 (⟨t.val * 32 + p.val, by have := p.isLt; omega⟩ : Fin 4096) q r) := fun p q r => by
    show V m c main_arg0 (((cfg0.win 1).blk t).view.emb (ix3 p q r)) = _
    rw [V_main_arg0]
    refine congrArg _ (funext fun a => Fin.ext ?_)
    match a with
    | ⟨0, _⟩ => show win0_1.index t (0 : Fin 3) * 32 + 1 * p.val = t.val * 32 + p.val; rw [b0]; omega
    | ⟨1, _⟩ => show win0_1.index t (1 : Fin 3) * 128 + 1 * q.val = q.val; rw [b1]; omega
    | ⟨2, _⟩ => show win0_1.index t (2 : Fin 3) * 128 + 1 * r.val = r.val; rw [b2]; omega
  have h2 : ∀ (k r : Fin 128), iblk m c 2 t (ix2 k r) = m ((c : Thread nD τ).loc main_arg2) (ix2 k r) := fun k r => by
    show V m c main_v11 (((cfg0.win 2).blk t).view.emb (ix2 k r)) = _
    rw [Staged.V_v11]
    refine congrArg _ (funext fun a => Fin.ext ?_)
    match a with
    | ⟨0, _⟩ => show win0_2.index t (0 : Fin 2) * 128 + 1 * k.val = k.val; rw [c0]; omega
    | ⟨1, _⟩ => show win0_2.index t (1 : Fin 2) * 128 + 1 * r.val = r.val; rw [c1]; omega
  have h3 : ∀ (p : Fin 32) (q : Fin 128), iblk m c 3 t (ix3 p q (0 : Fin 1))
      = (((live (m ((c : Thread nD τ).loc main_arg3)) (⟨t.val * 32 + p.val, by have := p.isLt; omega⟩ : Fin 4096) q).toNat : ℝ) : EReal) := fun p q => by
    show V m c main_v9 (((cfg0.win 3).blk t).view.emb (ix3 p q (0 : Fin 1))) = _
    rw [← Staged.V_v9_apply m c (⟨t.val * 32 + p.val, by have := p.isLt; omega⟩ : Fin 4096) q (0 : Fin 1)]
    refine congrArg _ (funext fun a => Fin.ext ?_)
    match a with
    | ⟨0, _⟩ => show win0_3.index t (0 : Fin 3) * 32 + 1 * p.val = t.val * 32 + p.val; rw [d0]; omega
    | ⟨1, _⟩ => show win0_3.index t (1 : Fin 3) * 128 + 1 * q.val = q.val; rw [d1]; omega
    | ⟨2, _⟩ => show win0_3.index t (2 : Fin 3) * 1 + 1 * 0 = 0; rw [d2]
  funext j
  show k0_pay1 (F := Ideal) (iblk m c 0 t) (iblk m c 2 t) (iblk m c 1 t) (iblk m c 3 t) j
    = result m c (((cfg0.win 4).blk t).view.emb j)
  refine (congrFun (point_fun _ _ _ _ (iblk m c 0 t) (iblk m c 1 t) (iblk m c 2 t) (iblk m c 3 t) t.val hT h0 h1 h2 h3) j).trans ?_
  unfold result
  refine congrArg _ (funext fun a => Fin.ext ?_)
  match a with
  | ⟨0, _⟩ => show t.val * 32 + (j 0).val = win0_4.index t (0 : Fin 3) * 32 + 1 * (j 0).val; rw [e0]; omega
  | ⟨1, _⟩ => show (j 1).val = win0_4.index t (1 : Fin 3) * 128 + 1 * (j 1).val; rw [e1]; omega
  | ⟨2, _⟩ => show (j 2).val = win0_4.index t (2 : Fin 3) * 128 + 1 * (j 2).val; rw [e2]; omega

/-- An index of the array is in point `t`'s block iff each coordinate is in the block's range on its axis. -/
theorem mem_blk (t : Fin cfg0.N) (i : S4096x128x128.Idx) :
    i ∈ ((cfg0.win 4).blk t).view.set ↔ ∀ a : Fin 3, win0_4.index t a * S32x128x128.size a ≤ (i a).val
      ∧ (i a).val < win0_4.index t a * S32x128x128.size a + S32x128x128.size a := by
  show i ∈ ((View.whole main_v12).slice (win0_4.rect t)).set ↔ _
  rw [View.set_slice_whole, Rect.mem_set_unit]
  exact Iff.rfl

/-- Every index of the array lies in the block of the point `b / 32`, `b` its batch coordinate. -/
theorem cover (i : S4096x128x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hi2 : (i 2).val < 128 := (i 2).isLt
  have hN : cfg0.N = 128 := N_0
  have ht : (i 0).val / 32 < cfg0.N := by rw [hN]; omega
  obtain ⟨-, -, -, -, ⟨e0, e1, e2⟩⟩ := starts ⟨(i 0).val / 32, ht⟩
  refine ⟨⟨(i 0).val / 32, ht⟩, flush0_4 _, ?_⟩
  rw [mem_blk]
  intro a
  match a with
  | ⟨0, _⟩ =>
    show win0_4.index ⟨(i 0).val / 32, ht⟩ (0 : Fin 3) * 32 ≤ (i 0).val
      ∧ (i 0).val < win0_4.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_4.index ⟨(i 0).val / 32, ht⟩ (1 : Fin 3) * 128 ≤ (i 1).val
      ∧ (i 1).val < win0_4.index ⟨(i 0).val / 32, ht⟩ (1 : Fin 3) * 128 + 128
    rw [e1]; omega
  | ⟨2, _⟩ =>
    show win0_4.index ⟨(i 0).val / 32, ht⟩ (2 : Fin 3) * 128 ≤ (i 2).val
      ∧ (i 2).val < win0_4.index ⟨(i 0).val / 32, ht⟩ (2 : Fin 3) * 128 + 128
    rw [e2]; omega

/-- THE ARRAY after the run is `result`. -/
theorem final (c : Dev nD) : (dats m 0 c).arrAt 4 cfg0.N = result m c :=
  (dats m 0 c).arrAt_eq_of_cover 4 (result m c) (fun t _ => flushed_eq m c t) cover

/-- The run with the result array at `result`, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  The kernel and its reference compute one function of their four arguments over the extended reals.

  Arguments: `x₀, x₁ : [4096,128,128]`, `x₂ : [128,128]` (floats) and an integer table `x₃ : [4096,2]`. Both programs
  end with the array

      G (b, a, f) = max (∑ k, x₁ (b, a, k) · x₂ (k, f) + x₀ (b, a, f), 0) · [a < x₃ (b, 0)]

  where the bracket is the signed comparison read as 1 or 0 (`MaskedRelu.G`).
  * The reference (host operations only) contracts `x₁` with `x₂`, adds `x₀`, cuts at zero and CHOOSES between that and
    zero on the comparison bit: `HostSide.result_eq` reads it operation by operation, the choice being the product with
    the bit as a number.
  * The kernel builds the comparison as a [4096,128,1] array of numbers on the host (`Staged`), and runs 128 grid points,
    point `t` on batch entries `32·t … 32·t+31`: it folds its [32,128,128] block of `x₁` to [4096,128], multiplies by
    `x₂`, unfolds, adds its block of `x₀`, cuts at zero and multiplies by its block of the comparison stretched along the
    last axis (`Tile.pay_apply`); the blocks written back tile the result (`Whole`). The narrower float format the
    kernel passes `x₁` and `x₂` through is the identity on the extended reals.
  No law used needs finiteness (a sum is read in the same order on both sides; `x · 1 = x`, `x · 0 = 0` hold for every
  extended real), so the precondition is never opened. The three frames are the generated ones; the idealization rewrote
  nothing, so `preserves` is `True`.
-/
import proofs.«142078_j53266184405691_1_alg».proof.Defs
import proofs.«142078_j53266184405691_1_alg».proof.Proof.Gen.Kernel
import proofs.«142078_j53266184405691_1_alg».proof.Proof.Gen.Kernel.Skeleton
import proofs.«142078_j53266184405691_1_alg».proof.Proof.Gen.Kernel.Launch
import proofs.«142078_j53266184405691_1_alg».proof.Proof.Gen.Kernel.Points
import proofs.«142078_j53266184405691_1_alg».proof.Proof.Gen.Kernel.Frame
import proofs.«142078_j53266184405691_1_alg».proof.Proof.Gen.KernelIdeal
import proofs.«142078_j53266184405691_1_alg».proof.Proof.Gen.KernelIdeal.Skeleton
import proofs.«142078_j53266184405691_1_alg».proof.Proof.Gen.KernelIdeal.Launch
import proofs.«142078_j53266184405691_1_alg».proof.Proof.Gen.KernelIdeal.Points
import proofs.«142078_j53266184405691_1_alg».proof.Proof.Gen.KernelIdeal.Frame
import proofs.«142078_j53266184405691_1_alg».proof.Proof.Gen.ReferenceIdeal
import proofs.«142078_j53266184405691_1_alg».proof.Proof.Gen.Pre_finite_inputs
import proofs.«142078_j53266184405691_1_alg».proof.Proof.Gen.KernelIdeal.Value
import proofs.«142078_j53266184405691_1_alg».proof.Proof.Gen.ReferenceIdeal.Run
import proofs.«142078_j53266184405691_1_alg».proof.Proof.Gen.ReferenceIdeal.Read
import proofs.«142078_j53266184405691_1_alg».proof.Proof.HostSide
import proofs.«142078_j53266184405691_1_alg».proof.Proof.Whole
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with `G` of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.HostSide.result_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
